-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x128 .f32) (main_arg3 : FVec F S128 .f32) (main_arg4 : FVec F S512x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S512x256 : Shape := ⟨2, ![512, 256]⟩
abbrev S50000x256 : Shape := ⟨2, ![50000, 256]⟩
abbrev S2000x512 : Shape := ⟨2, ![2000, 512]⟩
abbrev S2000x256 : Shape := ⟨2, ![2000, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 89
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S512x256, .f32⟩
  | .hbm, ⟨47, _⟩ => ⟨S512x256, .bf16⟩
  | .hbm, ⟨48, _⟩ => ⟨S50000x256, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  concatenates_S512x128_S512x128_S512x256_d1 : Shape.Concatenates [S512x128, S512x128] S512x256 1
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  slices_S50000x256_S50000x128_0_0 : S50000x256.Slices ![0, 0] S50000x128
  slices_S50000x256_S50000x128_0_128 : S50000x256.Slices ![0, 128] S50000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.BlockProduct.lean ====
/-
  One grid point's arithmetic.  The body loads a 2000×512 block of the node features and the whole
  512×256 matrix of concatenated weights, and stores their matrix product accumulated into zero.
  Over the extended reals a change of float format is the identity and a product accumulated into
  zero is the plain sum over the contracted axis, so entry (p, q) of the stored block is
  Σ_k x(p, k) · w(k, q).
-/
import proofs.«122476_j54296976556798_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem
open Idealize.ShloMosaic.ValueIdx (ix2)

/-- The body's product: axis 1 of the left operand is contracted with axis 0 of the right one. -/
abbrev mm : DotDims S2000x512 S512x256 S2000x256 := dot_S2000x512_S512x256_S2000x256_1_0_0_1_n_n

/-- The left operand is read on the output's row … -/
theorem lhs_row (i : S2000x256.Idx) (q : mm.contr.Idx) : (mm.lhsIdx i q 0).val = (i 0).val := by
  unfold DotDims.lhsIdx
  rw [dif_neg (show ¬(0 : Fin S2000x512.rank) ∈ mm.lhsBatch by decide),
    dif_pos (show (0 : Fin S2000x512.rank) ∈ mm.lhsNonContracting by decide)]
  rfl
/-- … at the contracted coordinate; -/
theorem lhs_col (i : S2000x256.Idx) (q : mm.contr.Idx) : (mm.lhsIdx i q 1).val = (q ⟨0, by decide⟩).val :=
  mm.lhsIdx_val_of_single rfl i q
/-- the right operand at the contracted coordinate … -/
theorem rhs_row (i : S2000x256.Idx) (q : mm.contr.Idx) : (mm.rhsIdx i q 0).val = (q ⟨0, by decide⟩).val :=
  mm.rhsIdx_val_of_single rfl i q
/-- … on the output's column. -/
theorem rhs_col (i : S2000x256.Idx) (q : mm.contr.Idx) : (mm.rhsIdx i q 1).val = (i 1).val := by
  unfold DotDims.rhsIdx
  rw [dif_neg (show ¬(1 : Fin S512x256.rank) ∈ mm.rhsBatch by decide),
    dif_pos (show (1 : Fin S512x256.rank) ∈ mm.rhsNonContracting by decide)]
  rfl

/-- Entry (p, q) of what the body stores is the sum over k of x(p, k) · w(k, q): the two format changes and the
    same-shape cast are identities on the extended reals, and the accumulator is zero. -/
theorem pay_apply (x0 : FVec Ideal S2000x512 .f32) (x1 : FVec Ideal S512x256 .bf16) (p : Fin 2000) (q : Fin 256) :
    k0_pay1 (F := Ideal) x0 x1 (ix2 p q) = ∑ k : Fin 512, x0 (ix2 p k) * x1 (ix2 k q) := by
  unfold k0_pay1
  refine (Ideal.matmul_constant_zero_apply mm none _ _ (ix2 p q)).trans ?_
  rw [← Equiv.sum_comp (ValueIdx.contrEquiv1 mm 512 rfl rfl).symm]
  refine Finset.sum_congr rfl fun k _ => ?_
  have hk := ValueIdx.contrEquiv1_symm_val mm 512 rfl rfl k
  have el : mm.lhsIdx (ix2 p q) ((ValueIdx.contrEquiv1 mm 512 rfl rfl).symm k) = ix2 p k := funext fun a => Fin.ext (by
    match a with
    | ⟨0, _⟩ => exact lhs_row _ _
    | ⟨1, _⟩ => exact (lhs_col _ _).trans hk)
  have er : mm.rhsIdx (ix2 p q) ((ValueIdx.contrEquiv1 mm 512 rfl rfl).symm k) = ix2 k q := funext fun a => Fin.ext (by
    match a with
    | ⟨0, _⟩ => exact (rhs_row _ _).trans hk
    | ⟨1, _⟩ => exact rhs_col _ _)
  rw [el, er, shapeCast_self]
  rfl

end Cert.KernelIdeal.BlockProduct

end
-- ==== Proof.Heads.lean ====
/-
  The two heads.  The kernel multiplies the node features by the two weight matrices set side by side
  (512×256: columns 0–127 are the first head's weights, columns 128–255 the second's) and then cuts the
  product's columns apart; the reference multiplies by each weight matrix separately.  Entry (r, c) of a
  product is the sum over k of x(r, k) · w(k, c), and column c of the concatenated matrix IS column c of
  the first matrix (c < 128) or column c − 128 of the second: the very same sum, term by term.  No law of
  arithmetic is used, so nothing is asked of the entries (they may be infinite).
-/
import proofs.«122476_j54296976556798_1_alg».proof.Proof.Gen.KernelIdeal
import proofs.«122476_j54296976556798_1_alg».proof.Proof.Gen.ReferenceIdeal
import Idealize.ShloMosaic.Lib.Pipeline.Value
import Idealize.ShloMosaic.Lib.ValueIdx
import Idealize.ShloMosaic.PureOps.Ideal.Laws

noncomputable section

namespace Cert.Heads

open Idealize.ShloMosaic Idealize.ShloMosaic.TcCoe Idealize.SL.Sem
open Idealize.ShloMosaic.ValueIdx (ix2)

/-- Entry (r, c) of the node features times the concatenated weights. -/
def entry (X : FVec Ideal Cert.KernelIdeal.S50000x512 .f32) (W : FVec Ideal Cert.KernelIdeal.S512x256 .bf16)
    (r : Fin 50000) (c : Fin 256) : EReal :=
  ∑ k : Fin 512, X (ix2 r k) * W (ix2 k c)

/-- The whole 50000×256 product, index by index: what the kernel's output array holds after the region. -/
def product (X : FVec Ideal Cert.KernelIdeal.S50000x512 .f32) (W : FVec Ideal Cert.KernelIdeal.S512x256 .bf16) :
    FVec Ideal Cert.KernelIdeal.S50000x256 .f32 :=
  fun i => entry X W ⟨(i 0).val, (i 0).isLt⟩ ⟨(i 1).val, (i 1).isLt⟩

theorem product_ix2 (X : FVec Ideal Cert.KernelIdeal.S50000x512 .f32) (W : FVec Ideal Cert.KernelIdeal.S512x256 .bf16)
    (r : Fin 50000) (c : Fin 256) : product X W (ix2 r c) = entry X W r c := rfl

/-! ## The reference's products, read at an index -/

/-- The reference's product: axis 1 of the features is contracted with axis 0 of a head's weights. -/
abbrev rmm : DotDims Cert.ReferenceIdeal.S50000x512 Cert.ReferenceIdeal.S512x128 Cert.ReferenceIdeal.S50000x128 :=
  Cert.ReferenceIdeal.dot_S50000x512_S512x128_S50000x128_1_0_0_1_n_n

theorem rlhs_row (i : Cert.ReferenceIdeal.S50000x128.Idx) (q : rmm.contr.Idx) : (rmm.lhsIdx i q 0).val = (i 0).val := by
  unfold DotDims.lhsIdx
  rw [dif_neg (show ¬(0 : Fin Cert.ReferenceIdeal.S50000x512.rank) ∈ rmm.lhsBatch by decide),
    dif_pos (show (0 : Fin Cert.ReferenceIdeal.S50000x512.rank) ∈ rmm.lhsNonContracting by decide)]
  rfl
theorem rlhs_col (i : Cert.ReferenceIdeal.S50000x128.Idx) (q : rmm.contr.Idx) : (rmm.lhsIdx i q 1).val = (q ⟨0, by decide⟩).val :=
  rmm.lhsIdx_val_of_single rfl i q
theorem rrhs_row (i : Cert.ReferenceIdeal.S50000x128.Idx) (q : rmm.contr.Idx) : (rmm.rhsIdx i q 0).val = (q ⟨0, by decide⟩).val :=
  rmm.rhsIdx_val_of_single rfl i q
theorem rrhs_col (i : Cert.ReferenceIdeal.S50000x128.Idx) (q : rmm.contr.Idx) : (rmm.rhsIdx i q 1).val = (i 1).val := by
  unfold DotDims.rhsIdx
  rw [dif_neg (show ¬(1 : Fin Cert.ReferenceIdeal.S512x128.rank) ∈ rmm.rhsBatch by decide),
    dif_pos (show (1 : Fin Cert.ReferenceIdeal.S512x128.rank) ∈ rmm.rhsNonContracting by decide)]
  rfl

/-- One head's product on the host, at row r and column c: the sum over k of x(r, k) · w(k, c). -/
theorem host_product_apply (X : FVec Ideal Cert.ReferenceIdeal.S50000x512 .f32) (W : FVec Ideal Cert.ReferenceIdeal.S512x128 .f32)
    (r : Fin 50000) (c : Fin 128) :
    Host.dotGeneral (F := Ideal) rmm none X W (ix2 r c) = ∑ k : Fin 512, X (ix2 r k) * W (ix2 k c) := by
  simp only [Host.dotGeneral]
  rw [Ideal.dotGeneral_apply, ← Equiv.sum_comp (ValueIdx.contrEquiv1 rmm 512 rfl rfl).symm]
  refine Finset.sum_congr rfl fun k _ => ?_
  have hk := ValueIdx.contrEquiv1_symm_val rmm 512 rfl rfl k
  have el : rmm.lhsIdx (ix2 r c) ((ValueIdx.contrEquiv1 rmm 512 rfl rfl).symm k) = ix2 r k := funext fun a => Fin.ext (by
    match a with
    | ⟨0, _⟩ => exact rlhs_row _ _
    | ⟨1, _⟩ => exact (rlhs_col _ _).trans hk)
  have er : rmm.rhsIdx (ix2 r c) ((ValueIdx.contrEquiv1 rmm 512 rfl rfl).symm k) = ix2 k c := funext fun a => Fin.ext (by
    match a with
    | ⟨0, _⟩ => exact (rrhs_row _ _).trans hk
    | ⟨1, _⟩ => exact rrhs_col _ _)
  rw [el, er]

/-! ## The concatenated weights, column by column -/

/-- The weights as the kernel's region finds them: the two matrices side by side, then the change of format. -/
def weights (Wmu Wls : FVec Ideal Cert.KernelIdeal.S512x128 .f32) : FVec Ideal Cert.KernelIdeal.S512x256 .bf16 :=
  truncf .bf16 (concatenate Cert.KernelIdeal.S512x256 1 [⟨Cert.KernelIdeal.S512x128, Wmu⟩, ⟨Cert.KernelIdeal.S512x128, Wls⟩]
    Cert.KernelIdeal.Facts₀.concatenates_S512x128_S512x128_S512x256_d1) Cert.KernelIdeal.Facts₀.bitsLt_bf16_f32

/-- Columns 0–127 are the first matrix. -/
theorem weights_left (Wmu Wls : FVec Ideal Cert.KernelIdeal.S512x128 .f32) (k : Fin 512) (c : Fin 128) :
    weights Wmu Wls (ix2 k ⟨c.val, by omega⟩) = Wmu (ix2 k c) := by
  show concatenate Cert.KernelIdeal.S512x256 1 [⟨Cert.KernelIdeal.S512x128, Wmu⟩, ⟨Cert.KernelIdeal.S512x128, Wls⟩]
    Cert.KernelIdeal.Facts₀.concatenates_S512x128_S512x128_S512x256_d1 (ix2 k ⟨c.val, by omega⟩) = Wmu (ix2 k c)
  refine concatenate_pair_apply_left (1 : Fin Cert.KernelIdeal.S512x256.rank) Wmu Wls _ _ rfl (ix2 k c) (fun b => ?_)
  match b with
  | ⟨0, _⟩ => rfl
  | ⟨1, _⟩ => rfl

/-- Columns 128–255 are the second matrix. -/
theorem weights_right (Wmu Wls : FVec Ideal Cert.KernelIdeal.S512x128 .f32) (k : Fin 512) (c : Fin 128) :
    weights Wmu Wls (ix2 k ⟨128 + c.val, by omega⟩) = Wls (ix2 k c) := by
  show concatenate Cert.KernelIdeal.S512x256 1 [⟨Cert.KernelIdeal.S512x128, Wmu⟩, ⟨Cert.KernelIdeal.S512x128, Wls⟩]
    Cert.KernelIdeal.Facts₀.concatenates_S512x128_S512x128_S512x256_d1 (ix2 k ⟨128 + c.val, by omega⟩) = Wls (ix2 k c)
  refine concatenate_pair_apply_right (1 : Fin Cert.KernelIdeal.S512x256.rank) Wmu Wls _ _ rfl rfl (ix2 k c) (fun b hb => ?_) ?_
  · match b with
    | ⟨0, _⟩ => rfl
    | ⟨1, _⟩ => exact absurd rfl hb
  · show c.val + 128 = 128 + c.val
    omega

/-! ## The two column slices of the product are the reference's two products -/

/-- Columns 0–127 of the kernel's product are the features times the first head's weights. -/
theorem slice_mu (X : FVec Ideal Cert.KernelIdeal.S50000x512 .f32) (Wmu Wls : FVec Ideal Cert.KernelIdeal.S512x128 .f32) :
    extractStridedSlice Cert.KernelIdeal.S50000x128 ![0, 0] (product X (weights Wmu Wls))
        Cert.KernelIdeal.Facts₀.slices_S50000x256_S50000x128_0_0
      = Host.dotGeneral (F := Ideal) rmm none X Wmu := by
  funext i
  obtain ⟨r, c, rfl⟩ : ∃ (r : Fin 50000) (c : Fin 128), i = ix2 r c := ⟨i 0, i 1, ValueIdx.eq_ix2 i⟩
  refine (extractStridedSlice_apply ![0, 0] _ _ (ix2 r c) (ix2 r (⟨c.val, by omega⟩ : Fin 256)) (fun a => ?_)).trans ?_
  · match a with
    | ⟨0, _⟩ => show r.val = 0 + r.val; omega
    | ⟨1, _⟩ => show c.val = 0 + c.val; omega
  rw [product_ix2]
  refine Eq.trans ?_ (host_product_apply X Wmu r c).symm
  unfold entry
  exact Finset.sum_congr rfl fun k _ => congrArg (X (ix2 r k) * ·) (weights_left Wmu Wls k c)

/-- Columns 128–255 of the kernel's product are the features times the second head's weights. -/
theorem slice_logstd (X : FVec Ideal Cert.KernelIdeal.S50000x512 .f32) (Wmu Wls : FVec Ideal Cert.KernelIdeal.S512x128 .f32) :
    extractStridedSlice Cert.KernelIdeal.S50000x128 ![0, 128] (product X (weights Wmu Wls))
        Cert.KernelIdeal.Facts₀.slices_S50000x256_S50000x128_0_128
      = Host.dotGeneral (F := Ideal) rmm none X Wls := by
  funext i
  obtain ⟨r, c, rfl⟩ : ∃ (r : Fin 50000) (c : Fin 128), i = ix2 r c := ⟨i 0, i 1, ValueIdx.eq_ix2 i⟩
  refine (extractStridedSlice_apply ![0, 128] _ _ (ix2 r c) (ix2 r (⟨128 + c.val, by omega⟩ : Fin 256)) (fun a => ?_)).trans ?_
  · match a with
    | ⟨0, _⟩ => show r.val = 0 + r.val; omega
    | ⟨1, _⟩ => show 128 + c.val = 128 + c.val; rfl
  rw [product_ix2]
  refine Eq.trans ?_ (host_product_apply X Wls r c).symm
  unfold entry
  exact Finset.sum_congr rfl fun k _ => congrArg (X (ix2 r k) * ·) (weights_right Wmu Wls k c)

end Cert.Heads

end
-- ==== Proof.OutputArray.lean ====
/-
  From blocks to the array.  The grid has 25 points; point t reads rows 2000·t … 2000·t + 1999 of the
  node features (all 512 columns) and the one block that is the whole 512×256 weight matrix, and writes
  back rows 2000·t … 2000·t + 1999 of the 50000×256 output (all 256 columns).  What it writes is the
  product's entries at exactly those rows, so every point's block is the restriction of ONE function of
  the array index; the 25 row bands tile the array, so after the region the output array is that function.
-/
import proofs.«122476_j54296976556798_1_alg».proof.Proof.Gen.KernelIdeal.Frame
import proofs.«122476_j54296976556798_1_alg».proof.Proof.BlockProduct
import proofs.«122476_j54296976556798_1_alg».proof.Proof.Heads
import Idealize.ShloMosaic.Lib.Pipeline.Value
import Idealize.ShloMosaic.Lib.ValueIdx

set_option maxRecDepth 16384

noncomputable section

namespace Cert.KernelIdeal.OutputArray

open Cert.KernelIdeal Cert.KernelIdeal.Gen Idealize.ShloMosaic Idealize.ShloMosaic.TcCoe Idealize.SL.Sem
open Idealize.ShloMosaic.Pipeline (Dat Cfg Window)
open Idealize.ShloMosaic.ValueIdx (ix2)

variable (m : (ℓ : Loc nD τ sig) → Buf (Elt Ideal) ℓ)

/-- The body's rectangles start at the origin. -/
theorem origin : (![0, 0] : Fin 2 → Nat) = fun _ => 0 := funext fun a => by fin_cases a <;> rfl

/-- The printed index maps, decided once over the 25 points: the feature block's row index is the output block's and
    it spans all columns; the weight block is the one block; the output block's row index is the point's number and
    it spans all columns. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the arrays as the region finds them. -/
theorem flushed_eq (c : Dev nD) (t : Fin cfg0.N) :
    (dats m 0 c).flushed 2 t
      = ((cfg0.win 2).blk t).view.read (Elt Ideal) (Cert.Heads.product (V m c main_arg0) (V m c main_v31)) := by
  show (cfg0.win 2).cut (grid0.coords t) ((dats m 0 c).after 2 t) = _
  rw [after0_2]
  unfold out0_2
  rw [View.canon_unit_zero origin]
  simp only [View.ld_unit_zero (S := S2000x512) origin, View.ld_unit_zero (S := S512x256) origin]
  obtain ⟨e0, e1, e2, e3, e4, e5⟩ := index_facts t
  funext j
  obtain ⟨p, q, rfl⟩ : ∃ (p : Fin 2000) (q : Fin 256), j = ix2 p q := ⟨j 0, j 1, ValueIdx.eq_ix2 j⟩
  refine (BlockProduct.pay_apply (iblk m c 0 t) (iblk m c 1 t) p q).trans ?_
  show _ = Cert.Heads.entry (V m c main_arg0) (V m c main_v31)
    ⟨(((cfg0.win 2).blk t).view.emb (ix2 p q) 0).val, (((cfg0.win 2).blk t).view.emb (ix2 p q) 0).isLt⟩
    ⟨(((cfg0.win 2).blk t).view.emb (ix2 p q) 1).val, (((cfg0.win 2).blk t).view.emb (ix2 p q) 1).isLt⟩
  unfold Cert.Heads.entry
  refine Finset.sum_congr rfl fun k _ => ?_
  -- the feature block's entry (p, k) is the array's entry on the output's row, column k
  have hx : iblk m c 0 t (ix2 p k) = V m c main_arg0 (ix2
      ⟨(((cfg0.win 2).blk t).view.emb (ix2 p q) 0).val, (((cfg0.win 2).blk t).view.emb (ix2 p q) 0).isLt⟩ k) := by
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  -- the weight block's entry (k, q) is the array's entry on row k, the output's column
  have hw : iblk m c 1 t (ix2 k q) = V m c main_v31 (ix2 k
      ⟨(((cfg0.win 2).blk t).view.emb (ix2 p q) 1).val, (((cfg0.win 2).blk t).view.emb (ix2 p q) 1).isLt⟩) := by
    show V m c main_v31 (((cfg0.win 1).blk t).view.emb (ix2 k q)) = V m c main_v31 _
    refine congrArg (V m c main_v31) (funext fun a => Fin.ext ?_)
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  rw [hx, hw]

/-- An index of the output array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v32).slice (win0_2.rect t)).set ↔ _
  rw [View.set_slice_whole, Rect.mem_set_unit]
  exact Iff.rfl

/-- THE COVER: row r of the output lies in the band of point r / 2000, which writes its block back. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := N_0
  have hlt : (i 0).val / 2000 < grid0.N := by rw [hN]; omega
  obtain ⟨e0, e1, e2, e3, e4, e5⟩ := index_facts ⟨(i 0).val / 2000, hlt⟩
  refine ⟨⟨(i 0).val / 2000, hlt⟩, flush0_2 _, ?_⟩
  rw [mem_blk]
  intro a
  have e4' : win0_2.index ⟨(i 0).val / 2000, hlt⟩ (0 : Fin 2) = (i 0).val / 2000 := e4
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 256 ≤ (i 1).val
      ∧ (i 1).val < win0_2.index ⟨(i 0).val / 2000, hlt⟩ (1 : Fin 2) * 256 + 256
    omega

/-- THE OUTPUT ARRAY after the region: the product of the node features and the weights as the region finds them. -/
theorem final (c : Dev nD) :
    (dats m 0 c).arrAt 2 cfg0.N = Cert.Heads.product (V m c main_arg0) (V m c main_v31) :=
  (dats m 0 c).arrAt_eq_of_cover 2 _ (fun t _ => flushed_eq m c t) (cover)

end Cert.KernelIdeal.OutputArray

end
-- ==== Proof.Propagate.lean ====
/-
  The message passing both programs share, as ONE function that is never opened.
  From the edge list: the sources and the targets are a row of the list followed by the self loops
  0 … 49999; the in-degree of a node counts the targets equal to it; an edge's weight is
  deg(src)^(-1/2) · deg(dst)^(-1/2) (zero where the degree is not positive).  From a head's 50000×128
  node values h and its bias b: out(v, ·) = Σ over the edges into v of weight · h(src, ·), plus b.
  Both programs compute their two results as `aggregate` of the same sources, targets and weights; they differ
  only in the node values they pass in.  The two lemmas below read the kernel program's host lines back as
  these functions, over ANY contents of the buffers they read.
-/
import proofs.«122476_j54296976556798_1_alg».proof.Proof.Gen.KernelIdeal.Launch
import Idealize.ShloMosaic.Lib.StableHlo.Run
import Idealize.ShloMosaic.PureOps.Ideal

set_option maxRecDepth 16384

noncomputable section

namespace Cert.KernelIdeal.Propagate

open Cert.KernelIdeal Idealize.ShloMosaic Idealize.ShloMosaic.TcCoe Idealize.SL.Sem Idealize.ShloMosaic.StableHlo

/-- Row 0 of the edge list, then the self loops: every edge's source. -/
def sources (e : IVec S2x800000 32) : IVec S850000 32 :=
  concatenate S850000 0
    [⟨S800000, shapeCast S800000 (extractStridedSlice S1x800000 ![0, 0] e Facts₀.slices_S2x800000_S1x800000_0_0)
        Facts₀.shapeCasts_S1x800000_S800000⟩,
     ⟨S50000, iotaInDim S50000 32 0⟩] Facts₀.concatenates_S800000_S50000_S850000_d0

/-- Row 1 of the edge list, then the self loops: every edge's target. -/
def targets (e : IVec S2x800000 32) : IVec S850000 32 :=
  concatenate S850000 0
    [⟨S800000, shapeCast S800000 (extractStridedSlice S1x800000 ![1, 0] e Facts₀.slices_S2x800000_S1x800000_1_0)
        Facts₀.shapeCasts_S1x800000_S800000⟩,
     ⟨S50000, iotaInDim S50000 32 0⟩] Facts₀.concatenates_S800000_S50000_S850000_d0

/-- Node numbers as an index column; a negative number counts from the end. -/
def asIndex (v : IVec S850000 32) : IVec S850000x1 32 :=
  broadcastInDim S850000x1 ![0] Facts₀.bcast_S850000_S850000x1_0
    (select (cmpi .slt v (broadcastInDim S850000 ![] Facts₀.bcast_S_S850000 (constantI S_ 32 0#32)))
      (addi v (broadcastInDim S850000 ![] Facts₀.bcast_S_S850000 (constantI S_ 32 50000#32))) v)

/-- The in-degree of every node: one for each edge whose target it is. -/
def degree (dst : IVec S850000 32) : FVec Ideal S50000 .f32 :=
  Host.scatterAdd (F := Ideal) scatter_S50000_S850000x1_S850000_n_0_0_1
    (broadcastInDim S50000 ![] Facts₀.bcast_S_S50000 (constant (F := Ideal) S_ .f32 0x00000000#32))
    (broadcastInDim S850000x1 ![0] Facts₀.bcast_S850000_S850000x1_0 dst)
    (broadcastInDim S850000 ![] Facts₀.bcast_S_S850000 (constant (F := Ideal) S_ .f32 0x3F800000#32))

/-- deg^(-1/2) where the degree is positive, zero elsewhere. -/
def invSqrtDegree (dst : IVec S850000 32) : FVec Ideal S50000 .f32 :=
  select
    (cmpf (F := Ideal) .ogt (degree dst)
      (broadcastInDim S50000 ![] Facts₀.bcast_S_S50000 (constant (F := Ideal) S_ .f32 0x00000000#32)))
    (Host.rsqrt (F := Ideal) (degree dst))
    (broadcastInDim S50000 ![] Facts₀.bcast_S_S50000 (id (constant (F := Ideal) S_ .f32 0x00000000#32)))

/-- An edge's weight: the symmetric normalisation deg(src)^(-1/2) · deg(dst)^(-1/2). -/
def edgeWeight (src dst : IVec S850000 32) : FVec Ideal S850000 .f32 :=
  mulf (Host.gather gather_S50000_S850000x1_S850000_n_0_n_n_0_1_1 (invSqrtDegree dst) (asIndex src))
    (Host.gather gather_S50000_S850000x1_S850000_n_0_n_n_0_1_1 (invSqrtDegree dst) (asIndex dst))

/-- One head: gather the node values at the sources, scale each edge's row by its weight, sum the rows into the
    targets, add the bias to every node. -/
def aggregate (src dst : IVec S850000 32) (wgt : FVec Ideal S850000 .f32) (h : FVec Ideal S50000x128 .f32)
    (b : FVec Ideal S128 .f32) : FVec Ideal S50000x128 .f32 :=
  addf
    (Host.scatterAdd (F := Ideal) scatter_S50000x128_S850000x1_S850000x128_1_0_0_1
      (broadcastInDim S50000x128 ![] Facts₀.bcast_S_S50000x128 (constant (F := Ideal) S_ .f32 0x00000000#32))
      (broadcastInDim S850000x1 ![0] Facts₀.bcast_S850000_S850000x1_0 dst)
      (mulf (Host.gather gather_S50000x128_S850000x1_S850000x128_1_0_n_n_0_1_1128 h (asIndex src))
        (broadcastInDim S850000x128 ![0, 1] Facts₀.bcast_S850000x1_S850000x128_0_1
          (broadcastInDim S850000x1 ![0] Facts₀.bcast_S850000_S850000x1_0 wgt))))
    (broadcastInDim S50000x128 ![0, 1] Facts₀.bcast_S1x128_S50000x128_0_1
      (broadcastInDim S1x128 ![1] Facts₀.bcast_S128_S1x128_1 b))

/-! ## The kernel program's host lines, read back -/

/-- The host lines AFTER the region, at the first result: `aggregate` of what the buffers they read hold —
    columns 0–127 of the region's output array are the node values. -/
theorem after_tail_mu (W : Valuation τ sig (Elt Ideal)) :
    StableHlo.after (Gen.hostOps1 (F := Ideal)) W (Proc.devRef .tc main_v50)
      = aggregate (W (Proc.devRef .tc main_v3)) (W (Proc.devRef .tc main_v6)) (W (Proc.devRef .tc main_v29))
          (extractStridedSlice S50000x128 ![0, 0] (W (Proc.devRef .tc main_v32)) Facts₀.slices_S50000x256_S50000x128_0_0)
          (W (Proc.devRef .tc main_arg3)) := by
  after_results_simp <;> rfl

/-- The same at the second result: columns 128–255 are the node values. -/
theorem after_tail_logstd (W : Valuation τ sig (Elt Ideal)) :
    StableHlo.after (Gen.hostOps1 (F := Ideal)) W (Proc.devRef .tc main_v66)
      = aggregate (W (Proc.devRef .tc main_v3)) (W (Proc.devRef .tc main_v6)) (W (Proc.devRef .tc main_v29))
          (extractStridedSlice S50000x128 ![0, 128] (W (Proc.devRef .tc main_v32)) Facts₀.slices_S50000x256_S50000x128_0_128)
          (W (Proc.devRef .tc main_arg5)) := by
  after_results_simp <;> rfl

end Cert.KernelIdeal.Propagate

end
-- ==== Proof.Entry.lean ====
/-
  What the host lines BEFORE the region leave in the four buffers that the region and the lines after it
  read: the edge sources, the edge targets, the edge weights, and the two weight matrices set side by
  side in the matrix unit's input format.  Each is the corresponding function of the argument arrays.
  The forty-two lines come in three stretches — eighteen lines up to the degrees' comparison with zero and their
  inverse square root, the three lines of the outlined "where", twenty-one lines from the index wrapping to the
  format change — and each stretch is read back by itself over ANY contents of the buffers it reads; the
  stretches are then composed.
-/
import proofs.«122476_j54296976556798_1_alg».proof.Proof.Gen.KernelIdeal.Launch
import proofs.«122476_j54296976556798_1_alg».proof.Proof.Propagate
import proofs.«122476_j54296976556798_1_alg».proof.Proof.Heads
import Idealize.ShloMosaic.Lib.StableHlo.Run
import Idealize.ShloMosaic.Lib.Pipeline.Frame

set_option maxRecDepth 16384

noncomputable section

namespace Cert.KernelIdeal.Entry

open Cert.KernelIdeal Idealize.ShloMosaic Idealize.ShloMosaic.TcCoe Idealize.SL.Sem Idealize.ShloMosaic.StableHlo

variable (V : Valuation τ sig (Elt Ideal))

/-! ## First stretch: the self-looped edge list, the degrees, their comparison with zero and inverse square root -/

theorem first_sources :
    StableHlo.after (Gen.hostOps0 (F := Ideal)) V (Proc.devRef .tc main_v3) = Propagate.sources (V (Proc.devRef .tc main_arg1)) := by
  simp only [Gen.hostOps0]
  after_results_simp <;> rfl

theorem first_targets :
    StableHlo.after (Gen.hostOps0 (F := Ideal)) V (Proc.devRef .tc main_v6) = Propagate.targets (V (Proc.devRef .tc main_arg1)) := by
  simp only [Gen.hostOps0]
  after_results_simp <;> rfl

theorem first_positive :
    StableHlo.after (Gen.hostOps0 (F := Ideal)) V (Proc.devRef .tc main_v12)
      = cmpf (F := Ideal) .ogt (Propagate.degree (Propagate.targets (V (Proc.devRef .tc main_arg1))))
          (broadcastInDim S50000 ![] Facts₀.bcast_S_S50000 (constant (F := Ideal) S_ .f32 0x00000000#32)) := by
  simp only [Gen.hostOps0]
  after_results_simp <;> rfl

theorem first_rsqrt :
    StableHlo.after (Gen.hostOps0 (F := Ideal)) V (Proc.devRef .tc main_v13)
      = Host.rsqrt (F := Ideal) (Propagate.degree (Propagate.targets (V (Proc.devRef .tc main_arg1)))) := by
  simp only [Gen.hostOps0]
  after_results_simp <;> rfl

theorem first_zero :
    StableHlo.after (Gen.hostOps0 (F := Ideal)) V (Proc.devRef .tc main_cst_2) = constant (F := Ideal) S_ .f32 0x00000000#32 := by
  simp only [Gen.hostOps0]
  after_results_simp <;> rfl

theorem first_keeps_arg2 :
    StableHlo.after (Gen.hostOps0 (F := Ideal)) V (Proc.devRef .tc main_arg2) = V (Proc.devRef .tc main_arg2) := by
  simp only [Gen.hostOps0]
  after_results_simp <;> rfl

theorem first_keeps_arg4 :
    StableHlo.after (Gen.hostOps0 (F := Ideal)) V (Proc.devRef .tc main_arg4) = V (Proc.devRef .tc main_arg4) := by
  simp only [Gen.hostOps0]
  after_results_simp <;> rfl

/-! ## Second stretch: zero where the degree is not positive -/

theorem second_select :
    StableHlo.after (Gen.hostOps0_1 (F := Ideal)) V (Proc.devRef .tc main_v14)
      = select (V (Proc.devRef .tc main_v12)) (V (Proc.devRef .tc main_v13))
          (broadcastInDim S50000 ![] Facts₀.bcast_S_S50000 (id (V (Proc.devRef .tc main_cst_2)))) := by
  simp only [Gen.hostOps0_1]
  after_results_simp <;> rfl

theorem second_keeps_v3 :
    StableHlo.after (Gen.hostOps0_1 (F := Ideal)) V (Proc.devRef .tc main_v3) = V (Proc.devRef .tc main_v3) := by
  simp only [Gen.hostOps0_1]
  after_results_simp <;> rfl

theorem second_keeps_v6 :
    StableHlo.after (Gen.hostOps0_1 (F := Ideal)) V (Proc.devRef .tc main_v6) = V (Proc.devRef .tc main_v6) := by
  simp only [Gen.hostOps0_1]
  after_results_simp <;> rfl

theorem second_keeps_arg2 :
    StableHlo.after (Gen.hostOps0_1 (F := Ideal)) V (Proc.devRef .tc main_arg2) = V (Proc.devRef .tc main_arg2) := by
  simp only [Gen.hostOps0_1]
  after_results_simp <;> rfl

theorem second_keeps_arg4 :
    StableHlo.after (Gen.hostOps0_1 (F := Ideal)) V (Proc.devRef .tc main_arg4) = V (Proc.devRef .tc main_arg4) := by
  simp only [Gen.hostOps0_1]
  after_results_simp <;> rfl

/-! ## Third stretch: the edge weights, and the weights side by side in the matrix unit's input format -/

theorem third_edgeWeight :
    StableHlo.after (Gen.hostOps0_2 (F := Ideal)) V (Proc.devRef .tc main_v29)
      = (mulf (Host.gather gather_S50000_S850000x1_S850000_n_0_n_n_0_1_1 (V (Proc.devRef .tc main_v14))
            (Propagate.asIndex (V (Proc.devRef .tc main_v3))))
          (Host.gather gather_S50000_S850000x1_S850000_n_0_n_n_0_1_1 (V (Proc.devRef .tc main_v14))
            (Propagate.asIndex (V (Proc.devRef .tc main_v6)))) : FVec Ideal S850000 .f32) := by
  simp only [Gen.hostOps0_2]
  after_results_simp <;> rfl

theorem third_weights :
    StableHlo.after (Gen.hostOps0_2 (F := Ideal)) V (Proc.devRef .tc main_v31)
      = Cert.Heads.weights (V (Proc.devRef .tc main_arg2)) (V (Proc.devRef .tc main_arg4)) := by
  simp only [Gen.hostOps0_2]
  after_results_simp <;> rfl

theorem third_keeps_v3 :
    StableHlo.after (Gen.hostOps0_2 (F := Ideal)) V (Proc.devRef .tc main_v3) = V (Proc.devRef .tc main_v3) := by
  simp only [Gen.hostOps0_2]
  after_results_simp <;> rfl

theorem third_keeps_v6 :
    StableHlo.after (Gen.hostOps0_2 (F := Ideal)) V (Proc.devRef .tc main_v6) = V (Proc.devRef .tc main_v6) := by
  simp only [Gen.hostOps0_2]
  after_results_simp <;> rfl

/-! ## The three stretches in order -/

/-- The host lines before the region, in order. -/
abbrev before : List (HloOp τ sig (Elt Ideal)) :=
  List.flatten [Gen.hostOps0 (F := Ideal), Gen.hostOps0_1 (F := Ideal), Gen.hostOps0_2 (F := Ideal)]

theorem before_eq :
    StableHlo.after before V
      = StableHlo.after (Gen.hostOps0_2 (F := Ideal)) (StableHlo.after (Gen.hostOps0_1 (F := Ideal))
          (StableHlo.after (Gen.hostOps0 (F := Ideal)) V)) := by
  show StableHlo.after (Gen.hostOps0 (F := Ideal) ++ (Gen.hostOps0_1 (F := Ideal) ++ (Gen.hostOps0_2 (F := Ideal) ++ []))) V = _
  rw [List.append_nil, StableHlo.after_append, StableHlo.after_append]

theorem sources_eq :
    StableHlo.after before V (Proc.devRef .tc main_v3) = Propagate.sources (V (Proc.devRef .tc main_arg1)) := by
  rw [before_eq, third_keeps_v3, second_keeps_v3, first_sources]

theorem targets_eq :
    StableHlo.after before V (Proc.devRef .tc main_v6) = Propagate.targets (V (Proc.devRef .tc main_arg1)) := by
  rw [before_eq, third_keeps_v6, second_keeps_v6, first_targets]

theorem edgeWeight_eq :
    StableHlo.after before V (Proc.devRef .tc main_v29)
      = Propagate.edgeWeight (Propagate.sources (V (Proc.devRef .tc main_arg1)))
          (Propagate.targets (V (Proc.devRef .tc main_arg1))) := by
  rw [before_eq, third_edgeWeight, second_select, second_keeps_v3, second_keeps_v6, first_positive, first_rsqrt,
    first_zero, first_sources, first_targets]
  rfl

theorem weights_eq :
    StableHlo.after before V (Proc.devRef .tc main_v31)
      = Cert.Heads.weights (V (Proc.devRef .tc main_arg2)) (V (Proc.devRef .tc main_arg4)) := by
  rw [before_eq, third_weights, second_keeps_arg2, second_keeps_arg4, first_keeps_arg2, first_keeps_arg4]

end Cert.KernelIdeal.Entry

end
-- ==== Proof.Spec.lean ====
/-
  One head of the layer, as both programs compute it: the node features times the head's weights, then the
  shared message passing over the edge list, then the head's bias.  The two results of either program are
  this function of (edge list, features, the head's weights, the head's bias).
-/
import proofs.«122476_j54296976556798_1_alg».proof.Proof.Propagate
import proofs.«122476_j54296976556798_1_alg».proof.Proof.Heads

noncomputable section

namespace Cert.Spec

open Idealize.ShloMosaic Idealize.ShloMosaic.TcCoe Idealize.SL.Sem
open Cert.KernelIdeal

/-- out = aggregate over the self-looped, symmetrically normalised graph of (X · W), plus b. -/
def headValue (e : IVec S2x800000 32) (X : FVec Ideal S50000x512 .f32) (W : FVec Ideal S512x128 .f32)
    (b : FVec Ideal S128 .f32) : FVec Ideal S50000x128 .f32 :=
  Propagate.aggregate (Propagate.sources e) (Propagate.targets e)
    (Propagate.edgeWeight (Propagate.sources e) (Propagate.targets e))
    (Host.dotGeneral (F := Ideal) Cert.Heads.rmm none X W) b

end Cert.Spec

end
-- ==== Proof.KernelValue.lean ====
/-
  The kernel program's two results.  Its run (the generated frame run) ends with every buffer the lines after
  the region wrote at those lines' value over: the output array as the region leaves it — the product of the
  features and the side-by-side weights — and the sources, targets and edge weights the lines before the
  region computed.  Cutting the product's columns 0–127 / 128–255 gives the features times each head's
  weights, so each result is `headValue` of the argument arrays.
-/
import proofs.«122476_j54296976556798_1_alg».proof.Proof.Gen.KernelIdeal.Frame
import proofs.«122476_j54296976556798_1_alg».proof.Proof.OutputArray
import proofs.«122476_j54296976556798_1_alg».proof.Proof.Entry
import proofs.«122476_j54296976556798_1_alg».proof.Proof.Spec

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- What the lines after the region read: the region-entry contents, with the pipeline's arrays as the region
    leaves them. -/
def atTail (c : Dev nD) : Valuation τ sig (Elt Ideal) :=
  Pipeline.withArrays (cfgs 0).spec c (V0 m c) fun w => (dats m 0 c).arrAt w (cfgs 0).N

theorem tail_sources (c : Dev nD) :
    atTail m c (Proc.devRef .tc main_v3) = Propagate.sources (m ((c : Thread nD τ).loc main_arg1)) :=
  (Pipeline.withArrays_of_ne _ c (V0 m c) _ main_v3 (by exact (by decide : ∀ w, Pipeline.arrRef spec0 w ≠ main_v3))).trans
    (Entry.sources_eq fun b => m (c, b))

theorem tail_targets (c : Dev nD) :
    atTail m c (Proc.devRef .tc main_v6) = Propagate.targets (m ((c : Thread nD τ).loc main_arg1)) :=
  (Pipeline.withArrays_of_ne _ c (V0 m c) _ main_v6 (by exact (by decide : ∀ w, Pipeline.arrRef spec0 w ≠ main_v6))).trans
    (Entry.targets_eq fun b => m (c, b))

theorem tail_edgeWeight (c : Dev nD) :
    atTail m c (Proc.devRef .tc main_v29)
      = Propagate.edgeWeight (Propagate.sources (m ((c : Thread nD τ).loc main_arg1)))
          (Propagate.targets (m ((c : Thread nD τ).loc main_arg1))) :=
  (Pipeline.withArrays_of_ne _ c (V0 m c) _ main_v29 (by exact (by decide : ∀ w, Pipeline.arrRef spec0 w ≠ main_v29))).trans
    (Entry.edgeWeight_eq fun b => m (c, b))

theorem tail_bias_mu (c : Dev nD) :
    atTail m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

theorem tail_bias_logstd (c : Dev nD) :
    atTail m c (Proc.devRef .tc main_arg5) = m ((c : Thread nD τ).loc main_arg5) :=
  (Pipeline.withArrays_of_ne _ c (V0 m c) _ main_arg5 (by exact (by decide : ∀ w, Pipeline.arrRef spec0 w ≠ main_arg5))).trans
    (V_main_arg5 m c)

/-- The output array as the lines after the region find it: the features times the side-by-side weights. -/
theorem tail_output (c : Dev nD) :
    atTail m c (Proc.devRef .tc main_v32)
      = Cert.Heads.product (m ((c : Thread nD τ).loc main_arg0))
          (Cert.Heads.weights (m ((c : Thread nD τ).loc main_arg2)) (m ((c : Thread nD τ).loc main_arg4))) :=
  (Pipeline.withArrays_arr spec0 launch0.win.arr_inj c _ _ 2).trans
    ((OutputArray.final m c).trans
      (congrArg₂ Cert.Heads.product (V_main_arg0 m c) (Entry.weights_eq fun b => m (c, b))))

/-- The first result after the run. -/
theorem result_mu (c : Dev nD) :
    Pipeline.afterTail₀ cfgs (dats m) 0 (V0 m) [hostOps1] c main_v50
      = Cert.Spec.headValue (m ((c : Thread nD τ).loc main_arg1)) (m ((c : Thread nD τ).loc main_arg0))
          (m ((c : Thread nD τ).loc main_arg2)) (m ((c : Thread nD τ).loc main_arg3)) := by
  unfold Pipeline.afterTail₀
  show StableHlo.after (hostOps1 (F := Ideal)) (atTail m c) (Proc.devRef .tc main_v50) = _
  rw [Propagate.after_tail_mu, tail_sources, tail_targets, tail_edgeWeight, tail_bias_mu, tail_output, Cert.Heads.slice_mu]
  rfl

/-- The second result after the run. -/
theorem result_logstd (c : Dev nD) :
    Pipeline.afterTail₀ cfgs (dats m) 0 (V0 m) [hostOps1] c main_v66
      = Cert.Spec.headValue (m ((c : Thread nD τ).loc main_arg1)) (m ((c : Thread nD τ).loc main_arg0))
          (m ((c : Thread nD τ).loc main_arg4)) (m ((c : Thread nD τ).loc main_arg5)) := by
  unfold Pipeline.afterTail₀
  show StableHlo.after (hostOps1 (F := Ideal)) (atTail m c) (Proc.devRef .tc main_v66) = _
  rw [Propagate.after_tail_logstd, tail_sources, tail_targets, tail_edgeWeight, tail_bias_logstd, tail_output,
    Cert.Heads.slice_logstd]
  rfl

/-- THE RUN: every weakly fair execution of the kernel program terminates with its two results at the two heads'
    values of the argument arrays, and the argument arrays unchanged. -/
theorem run : θ_run defs (onTc (τ := τ) (main (F := Ideal))) ⟨m, fun _ => 0, ρ⟩ (fun r => ∀ c : Dev nD,
      r.2.mem ((c.tc : Thread nD τ).loc main_v50)
        = Cert.Spec.headValue (m ((c.tc : Thread nD τ).loc main_arg1)) (m ((c.tc : Thread nD τ).loc main_arg0))
            (m ((c.tc : Thread nD τ).loc main_arg2)) (m ((c.tc : Thread nD τ).loc main_arg3))
      ∧ r.2.mem ((c.tc : Thread nD τ).loc main_v66)
        = Cert.Spec.headValue (m ((c.tc : Thread nD τ).loc main_arg1)) (m ((c.tc : Thread nD τ).loc main_arg0))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v50 (Pipeline.mem_restRefs_of main_v50 (by decide) (by decide))).trans (result_mu m c),
      ((h c).2 main_v66 (Pipeline.mem_restRefs_of main_v66 (by decide) (by decide))).trans (result_logstd m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelValue

end
-- ==== Proof.ReferenceValue.lean ====
/-
  The reference's two results.  Its run ends with each result at the composed term of its host lines; that
  term is the shared message passing applied to the features times one head's weights — `headValue` of its own
  argument arrays.  The two programs print the shared lines with the same operations, constants and dimension
  records, so the equation holds by unfolding the definitions, without opening any operation.
-/
import proofs.«122476_j54296976556798_1_alg».proof.Proof.ReferenceRun
import proofs.«122476_j54296976556798_1_alg».proof.Proof.Spec

set_option maxRecDepth 16384

noncomputable section

namespace Cert.ReferenceIdeal.RefValue

open Cert.ReferenceIdeal Idealize.ShloMosaic Idealize.ShloMosaic.TcCoe Idealize.SL.Sem

variable (m : (ℓ : Loc nD τ sig) → Buf (Elt Ideal) ℓ)

/-- The first result: the first head. -/
theorem result_mu (c : Dev nD) :
    Cert.ReferenceIdeal.ValueP.res_main_v46 (F := Ideal) m c
      = Cert.Spec.headValue (m ((c.tc : Thread nD τ).loc main_arg1)) (m ((c.tc : Thread nD τ).loc main_arg0))
          (m ((c.tc : Thread nD τ).loc main_arg2)) (m ((c.tc : Thread nD τ).loc main_arg3)) := by
  unfold Cert.ReferenceIdeal.ValueP.res_main_v46
  rfl

/-- The second result: the second head. -/
theorem result_logstd (c : Dev nD) :
    Cert.ReferenceIdeal.ValueP.res_main_v63 (F := Ideal) m c
      = Cert.Spec.headValue (m ((c.tc : Thread nD τ).loc main_arg1)) (m ((c.tc : Thread nD τ).loc main_arg0))
          (m ((c.tc : Thread nD τ).loc main_arg4)) (m ((c.tc : Thread nD τ).loc main_arg5)) := by
  unfold Cert.ReferenceIdeal.ValueP.res_main_v63
  rfl

end Cert.ReferenceIdeal.RefValue

end
-- ==== Proof.lean ====
/-
  A graph-convolution layer with two heads (a mean and a log-deviation) over 50000 nodes with 512 features
  and 800000 edges, self loops added, symmetric normalisation by in-degree.

  Each head is  out = A · (X · W) + b :  X the node features, W the head's 512×128 weights, b its bias, and
  A the linear map "for every edge (s → t) add deg(s)^(-1/2) · deg(t)^(-1/2) times row s into row t".
  The reference computes X · W_mu and X · W_logstd separately on the host.  The kernel sets the two weight
  matrices side by side (512×256), multiplies the features by that once — on the matrix unit, 2000 rows
  per grid point, 25 points, the operands in the unit's narrow input format — and cuts the product's columns
  0–127 and 128–255 apart; everything around the product (degrees, weights, gather, scatter-sum, bias) is the
  same host computation in both programs.

  Over the extended reals a change of float format is the identity and a product accumulated into zero is
  the plain sum over the contracted axis.  Column c of the side-by-side matrix is column c of W_mu
  (c < 128) or column c − 128 of W_logstd, so entry (r, c) of either cut is literally the same sum
  Σ_k X(r, k) · W(k, c) the reference forms: no law of arithmetic is needed, and the inputs' finiteness is
  never used.  The shared message passing is carried as one function (`Propagate.aggregate`) applied to equal
  node values and is never opened.

  Modules: BlockProduct (one grid point's stored block, entry by entry), Heads (the whole product, the
  side-by-side weights column by column, the two cuts against the host's two products), OutputArray (the 25
  row bands tile the output array), Propagate (the shared message passing; the lines after the region read
  back), Entry (what the lines before the region leave), Spec (one head's value), KernelValue and
  ReferenceValue (each program's run with its results at the heads' values), and this assembly.
-/
import proofs.«122476_j54296976556798_1_alg».proof.Defs
import proofs.«122476_j54296976556798_1_alg».proof.Proof.Gen.Kernel
import proofs.«122476_j54296976556798_1_alg».proof.Proof.Gen.Kernel.Frame
import proofs.«122476_j54296976556798_1_alg».proof.Proof.Gen.KernelIdeal
import proofs.«122476_j54296976556798_1_alg».proof.Proof.Gen.KernelIdeal.Frame
import proofs.«122476_j54296976556798_1_alg».proof.Proof.Gen.ReferenceIdeal
import proofs.«122476_j54296976556798_1_alg».proof.Proof.Gen.Pre_finite_inputs
import proofs.«122476_j54296976556798_1_alg».proof.Proof.ReferenceRun
import proofs.«122476_j54296976556798_1_alg».proof.Proof.KernelValue
import proofs.«122476_j54296976556798_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel program as printed terminates, faults nowhere and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2)
    (Cert.ReferenceIdeal.ValueP.run (F := Ideal) m ρ)

/-- The idealization rewrote no operation: it is the kernel program's own text read over the extended reals. -/
theorem preserves : Cert.preserves_Kernel_KernelIdeal := trivial

/-- From memories agreeing on the arguments both programs end with each head at `headValue` of the edge list, the
    features, that head's weights and that head's bias. -/
theorem algebraic : Cert.algebraic_KernelIdeal_ReferenceIdeal := by
  intro m ρ m' ρ' _ hagree
  refine ⟨fun c => Cert.Spec.headValue
        (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Spec.headValue
        (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
      Cert.KernelIdeal.KernelValue.run m ρ, ?_⟩
  refine (θ_run Cert.ReferenceIdeal.defs _ _).mono (fun _ h c => ⟨?_, ?_, (h c).2.2⟩)
    (Cert.ReferenceIdeal.ValueP.run (F := Ideal) m' ρ')
  · rw [(h c).1, Cert.ReferenceIdeal.RefValue.result_mu, (hagree c).1, (hagree c).2.1, (hagree c).2.2.1,
      (hagree c).2.2.2.1]
  · rw [(h c).2.1, Cert.ReferenceIdeal.RefValue.result_logstd, (hagree c).1, (hagree c).2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
